-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048, .f32⟩
  | .hbm, ⟨6, _⟩ => ⟨S_, .f32⟩
  | .hbm, ⟨7, _⟩ => ⟨S2x16x2048, .f32⟩
  | .hbm, ⟨8, _⟩ => ⟨S2x16x2048, .f32⟩
  | .hbm, ⟨9, _⟩ => ⟨S2x16x2048x1, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .i1⟩
  | .hbm, ⟨21, _⟩ => ⟨S_, .f32⟩
  | .hbm, ⟨22, _⟩ => ⟨S_, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S_, .f32⟩
  | .hbm, ⟨29, _⟩ => ⟨S2x16x2048x1, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  bcast_S_S2x16x2048x1 : S_.BroadcastsInDim S2x16x2048x1 (![] : Fin 0 → Fin S2x16x2048x1.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Thresholded softmax attention, one output entry at a time.

  For a row of scores `s k` (one query against every key) and a column of values `v k`:
  the numerators are `e k = exp (s k - max s)`, the softmax denominator is `l = ∑ e`.
  The kernel keeps the numerators that reach the threshold times the denominator, sums the kept
  numerators, and divides the kept numerators' product with the values by that sum plus the
  denominator-scaled epsilon. The reference normalises first (`a k = e k / l`), keeps the weights
  that are not below the threshold, and divides every kept weight by their sum plus epsilon before
  the product with the values. Both are stated here over the extended reals, with the operations
  the two programs mean at the ideal values.
-/
import Idealize.ShloMosaic.PureOps.Ideal
import Idealize.ShloMosaic.PureOps.Ideal.Laws

noncomputable section

namespace Cert.SparseAttn

open Idealize.ShloMosaic

variable {ι : Type} [Fintype ι]

/-- The three float words the two programs share: minus infinity, the threshold, the epsilon. -/
abbrev negInf : EReal := Ideal.ofBits .f32 0xFF800000#32
abbrev thr : EReal := Ideal.ofBits .f32 0x3DCCCCCD#32
abbrev eps : EReal := Ideal.ofBits .f32 0x358637BD#32

/-- The largest score of the row, from minus infinity. -/
def rowMax (s : ι → EReal) : EReal := Finset.univ.fold max negInf s

/-- The softmax numerator at key `k`. -/
def num (s : ι → EReal) (k : ι) : EReal := Ideal.exp (s k - rowMax s)

/-- The softmax denominator of the row. -/
def den (s : ι → EReal) : EReal := ∑ k, num s k

/-- The kernel's kept numerator: the numerator where it reaches threshold × denominator, else zero. -/
def keptNum (s : ι → EReal) (k : ι) : EReal := if thr * den s ≤ num s k then num s k else 0

/-- The kernel's entry: kept numerators against the values, over their sum plus epsilon × denominator. -/
def kernelRow (s v : ι → EReal) : EReal :=
  Ideal.div (∑ k, keptNum s k * v k) ((∑ k, keptNum s k) + eps * den s)

/-- The reference's kept weight: zero where the normalised weight is below the threshold, else the weight. -/
def keptWeight (s : ι → EReal) (k : ι) : EReal :=
  if Ideal.div (num s k) (den s) < thr then 0 else Ideal.div (num s k) (den s)

/-- The reference's entry: every kept weight over their sum plus epsilon, against the values. -/
def refRow (s v : ι → EReal) : EReal :=
  ∑ k, Ideal.div (keptWeight s k) ((∑ j, keptWeight s j) + eps) * v k

end Cert.SparseAttn

end
-- ==== Proof.Body.lean ====
/-
  What the kernel body stores, read one entry at a time.

  At a grid point the body loads a block of 512 query rows and all 2048 key and value rows of one
  (batch, head) pair. Entry (r, d) of what it stores depends on query row r, every key row and column
  d of the values: the scores of row r are its products with the keys summed over the head
  dimension, and the stored entry is the specification's kernel entry (`kernelRow`) of that row of
  scores and that column of values. The body's intermediate values are named here one by one
  (scores, row maximum, numerators, denominator column, kept numerators, divisor column, weighted
  values), each read at an index, and the stored value is their quotient under the block's leading
  unit axis. The two changes of float format before the second product are the identity on the
  extended reals.
-/
import proofs.«112122_j34488587387508_2_alg».proof.Proof.Gen.KernelIdeal.Frame
import proofs.«112122_j34488587387508_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.SparseAttn.Body

open Idealize.ShloMosaic Idealize.ShloMosaic.ValueIdx Cert.KernelIdeal Cert.SparseAttn
open Cert.KernelIdeal.Facts₀

variable {α : Type}

/-- A length-`a` vector cast to an `[a, 1]` column reads, at row `i`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! The body's intermediate values, one definition each, as functions of the three loaded blocks. -/

/-- Scores: the query block against every key. -/
def scores (x0 : Vec Ideal S1x512x64 .f32) (x1 : Vec Ideal S1x2048x64 .f32) : FVec Ideal S512x2048 .f32 :=
  matmul dot_S512x64_S2048x64_S512x2048_1_1_0_0_n_n (some .fp32) (shapeCast S512x64 x0 shapeCasts_S1x512x64_S512x64 : FVec Ideal S512x64 .f32)
    (shapeCast S2048x64 x1 shapeCasts_S1x2048x64_S2048x64 : FVec Ideal S2048x64 .f32) (constant S512x2048 .f32 0x00000000#32)

/-- The largest score of each row. -/
def rmax (x0 : Vec Ideal S1x512x64 .f32) (x1 : Vec Ideal S1x2048x64 .f32) : FVec Ideal S512 .f32 :=
  multiReduction .maximumf [1] S512 (scores x0 x1) 0xFF800000#32 reduces_S512x2048_S512 (.inl rfl) rfl

/-- The softmax numerators. -/
def numer (x0 : Vec Ideal S1x512x64 .f32) (x1 : Vec Ideal S1x2048x64 .f32) : FVec Ideal S512x2048 .f32 :=
  exp (subf (scores x0 x1) (broadcastTo S512x2048 (shapeCast S512x1 (rmax x0 x1) shapeCasts_S512_S512x1) broadcasts_S512x1_S512x2048))

/-- The softmax denominators, as a column. -/
def denomCol (x0 : Vec Ideal S1x512x64 .f32) (x1 : Vec Ideal S1x2048x64 .f32) : FVec Ideal S512x1 .f32 :=
  shapeCast S512x1 (multiReduction .add [1] S512 (numer x0 x1) 0x00000000#32 reduces_S512x2048_S512 (.inl rfl) rfl) shapeCasts_S512_S512x1

/-- The kept numerators. -/
def kept (x0 : Vec Ideal S1x512x64 .f32) (x1 : Vec Ideal S1x2048x64 .f32) : FVec Ideal S512x2048 .f32 :=
  select (cmpf .oge (numer x0 x1) (broadcastTo S512x2048 (mulf (broadcast S512x1 (Scalar.ofBits .f32 0x3DCCCCCD#32)) (denomCol x0 x1)) broadcasts_S512x1_S512x2048))
    (numer x0 x1) (broadcast S512x2048 (Scalar.ofBits .f32 0x00000000#32))

/-- The divisor column: kept numerators' sum plus epsilon times the denominator. -/
def divisorCol (x0 : Vec Ideal S1x512x64 .f32) (x1 : Vec Ideal S1x2048x64 .f32) : FVec Ideal S512x1 .f32 :=
  addf (shapeCast S512x1 (multiReduction .add [1] S512 (kept x0 x1) 0x00000000#32 reduces_S512x2048_S512 (.inl rfl) rfl) shapeCasts_S512_S512x1)
    (mulf (broadcast S512x1 (Scalar.ofBits .f32 0x358637BD#32)) (denomCol x0 x1))

/-- The kept numerators against the values. -/
def weighted (x0 : Vec Ideal S1x512x64 .f32) (x1 x2 : Vec Ideal S1x2048x64 .f32) : FVec Ideal S512x64 .f32 :=
  matmul dot_S512x2048_S2048x64_S512x64_1_0_0_1_n_n none (truncf .bf16 (kept x0 x1) bitsLt_bf16_f32 : FVec Ideal S512x2048 .bf16)
    (truncf .bf16 (shapeCast S2048x64 x2 shapeCasts_S1x2048x64_S2048x64 : FVec Ideal S2048x64 .f32) bitsLt_bf16_f32 : FVec Ideal S2048x64 .bf16) (constant S512x64 .f32 0x00000000#32)

/-- The body's stored value is the quotient of the two, under the block's leading unit axis. -/
theorem pay_eq (x0 : Vec Ideal S1x512x64 .f32) (x1 x2 : Vec Ideal S1x2048x64 .f32) :
    Gen.k0_pay1 (F := Ideal) x0 x1 x2
      = shapeCast S1x512x64 (divf (weighted x0 x1 x2) (broadcastTo S512x64 (divisorCol x0 x1) broadcasts_S512x1_S512x64)) shapeCasts_S512x64_S1x512x64 := rfl

/-! ## The two products read at an index -/

local notation "D1" => dot_S512x64_S2048x64_S512x2048_1_1_0_0_n_n
local notation "D2" => dot_S512x2048_S2048x64_S512x64_1_0_0_1_n_n

theorem d1_lhs0 (i : S512x2048.Idx) (q : (D1).contr.Idx) : ((D1).lhsIdx i q 0).val = (i 0).val := by
  unfold DotDims.lhsIdx
  rw [dif_neg (show ¬(0 : Fin S512x64.rank) ∈ (D1).lhsBatch by decide), dif_pos (show (0 : Fin S512x64.rank) ∈ (D1).lhsNonContracting by decide)]
  rfl
theorem d1_lhs1 (i : S512x2048.Idx) (q : (D1).contr.Idx) : ((D1).lhsIdx i q 1).val = (q ⟨0, by decide⟩).val :=
  (D1).lhsIdx_val_of_single rfl i q
theorem d1_rhs0 (i : S512x2048.Idx) (q : (D1).contr.Idx) : ((D1).rhsIdx i q 0).val = (i 1).val := by
  unfold DotDims.rhsIdx
  rw [dif_neg (show ¬(0 : Fin S2048x64.rank) ∈ (D1).rhsBatch by decide), dif_pos (show (0 : Fin S2048x64.rank) ∈ (D1).rhsNonContracting by decide)]
  rfl
theorem d1_rhs1 (i : S512x2048.Idx) (q : (D1).contr.Idx) : ((D1).rhsIdx i q 1).val = (q ⟨0, by decide⟩).val :=
  (D1).rhsIdx_val_of_single rfl i q

theorem d2_lhs0 (i : S512x64.Idx) (q : (D2).contr.Idx) : ((D2).lhsIdx i q 0).val = (i 0).val := by
  unfold DotDims.lhsIdx
  rw [dif_neg (show ¬(0 : Fin S512x2048.rank) ∈ (D2).lhsBatch by decide), dif_pos (show (0 : Fin S512x2048.rank) ∈ (D2).lhsNonContracting by decide)]
  rfl
theorem d2_lhs1 (i : S512x64.Idx) (q : (D2).contr.Idx) : ((D2).lhsIdx i q 1).val = (q ⟨0, by decide⟩).val :=
  (D2).lhsIdx_val_of_single rfl i q
theorem d2_rhs0 (i : S512x64.Idx) (q : (D2).contr.Idx) : ((D2).rhsIdx i q 0).val = (q ⟨0, by decide⟩).val :=
  (D2).rhsIdx_val_of_single rfl i q
theorem d2_rhs1 (i : S512x64.Idx) (q : (D2).contr.Idx) : ((D2).rhsIdx i q 1).val = (i 1).val := by
  unfold DotDims.rhsIdx
  rw [dif_neg (show ¬(1 : Fin S2048x64.rank) ∈ (D2).rhsBatch by decide), dif_pos (show (1 : Fin S2048x64.rank) ∈ (D2).rhsNonContracting by decide)]
  rfl

/-- A score is the query row against the key row, summed over the head dimension. -/
theorem scores_apply (x0 : Vec Ideal S1x512x64 .f32) (x1 : Vec Ideal S1x2048x64 .f32) (r : Fin 512) (c : Fin 2048) :
    scores x0 x1 (ix2 r c) = ∑ e : Fin 64, x0 (ix3 (0 : Fin 1) r e) * x1 (ix3 (0 : Fin 1) c e) := by
  unfold scores
  simp only [matmul]
  rw [Ideal.matmul_constant_zero_apply, ← Equiv.sum_comp (contrEquiv1 (D1) 64 rfl rfl).symm]
  refine Finset.sum_congr rfl fun e _ => ?_
  have hk := contrEquiv1_symm_val (D1) 64 rfl rfl e
  have el : (D1).lhsIdx (ix2 r c) ((contrEquiv1 (D1) 64 rfl rfl).symm e) = ix2 r e := funext fun a => Fin.ext (by
    match a with
    | ⟨0, _⟩ => exact d1_lhs0 _ _
    | ⟨1, _⟩ => exact (d1_lhs1 _ _).trans hk)
  have er : (D1).rhsIdx (ix2 r c) ((contrEquiv1 (D1) 64 rfl rfl).symm e) = ix2 c e := funext fun a => Fin.ext (by
    match a with
    | ⟨0, _⟩ => exact d1_rhs0 _ _
    | ⟨1, _⟩ => exact (d1_rhs1 _ _).trans hk)
  rw [el, er, shapeCast_1ab_ab_apply, shapeCast_1ab_ab_apply]

/-- The weighted values: kept numerators of the row against the value column. -/
theorem weighted_apply (x0 : Vec Ideal S1x512x64 .f32) (x1 x2 : Vec Ideal S1x2048x64 .f32) (r : Fin 512) (d : Fin 64) :
    weighted x0 x1 x2 (ix2 r d) = ∑ c : Fin 2048, kept x0 x1 (ix2 r c) * x2 (ix3 (0 : Fin 1) c d) := by
  unfold weighted
  simp only [matmul]
  rw [Ideal.matmul_constant_zero_apply, ← Equiv.sum_comp (contrEquiv1 (D2) 2048 rfl rfl).symm]
  refine Finset.sum_congr rfl fun e _ => ?_
  have hk := contrEquiv1_symm_val (D2) 2048 rfl rfl e
  have el : (D2).lhsIdx (ix2 r d) ((contrEquiv1 (D2) 2048 rfl rfl).symm e) = ix2 r e := funext fun a => Fin.ext (by
    match a with
    | ⟨0, _⟩ => exact d2_lhs0 _ _
    | ⟨1, _⟩ => exact (d2_lhs1 _ _).trans hk)
  have er : (D2).rhsIdx (ix2 r d) ((contrEquiv1 (D2) 2048 rfl rfl).symm e) = ix2 e d := funext fun a => Fin.ext (by
    match a with
    | ⟨0, _⟩ => exact (d2_rhs0 _ _).trans hk
    | ⟨1, _⟩ => exact d2_rhs1 _ _)
  rw [el, er, truncf_apply, truncf_apply, shapeCast_1ab_ab_apply]

/-! ## The row reductions -/

/-- Row `r` with column `c` put back is `(r, c)`. -/
theorem lift_row (h : S512x2048.Reduces [1] S512) (r : Fin 512) (c : Fin (S512x2048.size 1)) :
    h.lift (ix1 r) c = ix2 r (⟨c.val, c.isLt⟩ : Fin 2048) := by
  funext a; apply Fin.ext
  fin_cases a <;> rfl

/-- The row maximum is the specification's, of the row's scores. -/
theorem rmax_apply (x0 : Vec Ideal S1x512x64 .f32) (x1 : Vec Ideal S1x2048x64 .f32) (r : Fin 512) :
    rmax x0 x1 (ix1 r) = rowMax (fun c : Fin 2048 => scores x0 x1 (ix2 r c)) := by
  unfold rmax rowMax
  refine (Ideal.multiReduction_maximumf_single (scores x0 x1) 0xFF800000#32 reduces_S512x2048_S512 (.inl rfl) rfl (ix1 r)).trans ?_
  have hf : (scores x0 x1 ∘ (reduces_S512x2048_S512).lift (ix1 r)) = fun c : Fin 2048 => scores x0 x1 (ix2 r c) :=
    funext fun c => congrArg (scores x0 x1) (lift_row _ r c)
  exact congrArg (fun f => Finset.fold max (Ideal.ofBits .f32 0xFF800000#32) f (Finset.univ : Finset (Fin 2048))) hf

/-- A row's sum over the key axis, at row `r`, is the sum over the keys of the row's entries. -/
theorem rowSum_apply (v : FVec Ideal S512x2048 .f32) (r : Fin 512) :
    multiReduction .add [1] S512 v 0x00000000#32 reduces_S512x2048_S512 (.inl rfl) rfl (ix1 r) = ∑ c : Fin 2048, v (ix2 r c) := by
  refine (Ideal.multiReduction_add_single v 0x00000000#32 reduces_S512x2048_S512 (.inl rfl) rfl (ix1 r)).trans ?_
  exact Finset.sum_congr rfl fun c _ => congrArg v (lift_row _ r c)

/-! ## The body's values at an index, in the specification's words -/

/-- The row of scores of query `r` of the block. -/
abbrev srow (x0 : Vec Ideal S1x512x64 .f32) (x1 : Vec Ideal S1x2048x64 .f32) (r : Fin 512) : Fin 2048 → EReal :=
  fun c => ∑ e : Fin 64, x0 (ix3 (0 : Fin 1) r e) * x1 (ix3 (0 : Fin 1) c e)

theorem srow_eq (x0 : Vec Ideal S1x512x64 .f32) (x1 : Vec Ideal S1x2048x64 .f32) (r : Fin 512) :
    (fun c : Fin 2048 => scores x0 x1 (ix2 r c)) = srow x0 x1 r := funext fun c => scores_apply x0 x1 r c

theorem numer_apply (x0 : Vec Ideal S1x512x64 .f32) (x1 : Vec Ideal S1x2048x64 .f32) (r : Fin 512) (c : Fin 2048) :
    numer x0 x1 (ix2 r c) = num (srow x0 x1 r) c := by
  unfold numer num
  show Ideal.exp (scores x0 x1 (ix2 r c) - broadcastTo S512x2048 (shapeCast S512x1 (rmax x0 x1) shapeCasts_S512_S512x1) broadcasts_S512x1_S512x2048 (ix2 r c)) = _
  rw [broadcastTo_a1_ab_apply, shapeCast_a_a1_apply, rmax_apply, srow_eq, scores_apply]

theorem denomCol_apply (x0 : Vec Ideal S1x512x64 .f32) (x1 : Vec Ideal S1x2048x64 .f32) (r : Fin 512) :
    denomCol x0 x1 (ix2 r (0 : Fin 1)) = den (srow x0 x1 r) := by
  unfold denomCol den
  rw [shapeCast_a_a1_apply, rowSum_apply]
  exact Finset.sum_congr rfl fun c _ => numer_apply x0 x1 r c

/-- A comparison's bit chooses between two values as the proposition does. -/
theorem select_ofBool {β : Type} (P : Prop) [Decidable P] (a b : β) :
    Scalar.select (BitVec.ofBool (decide P)) a b = if P then a else b := by
  unfold Scalar.select
  by_cases h : P
  · simp [h]
  · simp [h]

theorem kept_apply (x0 : Vec Ideal S1x512x64 .f32) (x1 : Vec Ideal S1x2048x64 .f32) (r : Fin 512) (c : Fin 2048) :
    kept x0 x1 (ix2 r c) = keptNum (srow x0 x1 r) c := by
  unfold kept keptNum
  rw [select_apply, cmpf_apply, broadcastTo_a1_ab_apply, mulf_apply, broadcast_apply, broadcast_apply, denomCol_apply, numer_apply]
  show Scalar.select (BitVec.ofBool (decide (Ideal.ofBits .f32 0x3DCCCCCD#32 * den (srow x0 x1 r) ≤ num (srow x0 x1 r) c))) (num (srow x0 x1 r) c) (Ideal.ofBits .f32 0x00000000#32) = _
  rw [select_ofBool, Ideal.ofBits_zero_f32]

theorem divisorCol_apply (x0 : Vec Ideal S1x512x64 .f32) (x1 : Vec Ideal S1x2048x64 .f32) (r : Fin 512) :
    divisorCol x0 x1 (ix2 r (0 : Fin 1)) = (∑ c : Fin 2048, keptNum (srow x0 x1 r) c) + eps * den (srow x0 x1 r) := by
  unfold divisorCol
  rw [addf_apply, shapeCast_a_a1_apply, rowSum_apply, mulf_apply, broadcast_apply, denomCol_apply]
  exact congrArg (· + _) (Finset.sum_congr rfl fun c _ => kept_apply x0 x1 r c)

/-- THE BODY'S STORED VALUE at `(0, r, d)`: the kernel's entry of the block's row of scores and the value column. -/
theorem pay_apply (x0 : Vec Ideal S1x512x64 .f32) (x1 x2 : Vec Ideal S1x2048x64 .f32) (r : Fin 512) (d : Fin 64) :
    Gen.k0_pay1 (F := Ideal) x0 x1 x2 (ix3 (0 : Fin 1) r d)
      = kernelRow (srow x0 x1 r) (fun c : Fin 2048 => x2 (ix3 (0 : Fin 1) c d)) := by
  rw [pay_eq, shapeCast_ab_1ab_apply, divf_apply, weighted_apply, broadcastTo_a1_ab_apply, divisorCol_apply]
  unfold kernelRow
  exact congrArg (Ideal.div · _) (Finset.sum_congr rfl fun c _ => by rw [kept_apply])

end Cert.SparseAttn.Body

end
-- ==== Proof.BlockEntry.lean ====
/-
  One entry of the region's result, and where the grid's blocks sit.

  The region's arrays are indexed by (pair, row, column) with 32 (batch, head) pairs. The grid has one
  point per (pair, block of 512 query rows): the query and result windows take that block of their
  arrays, the key and value windows take all 2048 rows of the pair. Entry (g, q, d) of the result is
  the kernel's entry of query row q of pair g against the pair's keys and column d of its values;
  what the body stores in its block is that entry when the loaded blocks are the arrays' rows of the
  pair. The relations between the four printed index maps are decided once over the 128 points.
-/
import proofs.«112122_j34488587387508_2_alg».proof.Proof.Body
import Idealize.ShloMosaic.Lib.Pipeline.Value

set_option maxRecDepth 16384

noncomputable section

namespace Cert.SparseAttn.Blocks

open Idealize.ShloMosaic Idealize.ShloMosaic.TcCoe Idealize.SL.Sem Idealize.ShloMosaic.ValueIdx Cert.KernelIdeal Cert.SparseAttn
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl

/-- Entry `(g, q, d)` of the region's result, from the three arrays the region reads: the kernel's entry of
    query row `q` of pair `g` against all the keys of the pair, and column `d` of the pair's values. -/
def entry (a0 a1 a2 : S32x2048x64.Idx → EReal) (g : Fin 32) (q : Fin 2048) (d : Fin 64) : EReal :=
  kernelRow (fun c : Fin 2048 => ∑ e : Fin 64, a0 (ix3 g q e) * a1 (ix3 g c e)) (fun c : Fin 2048 => a2 (ix3 g c d))

/-- The region's whole result array as one function of the arrays it reads. -/
def regionResult (a0 a1 a2 : S32x2048x64.Idx → EReal) : S32x2048x64.Idx → EReal :=
  fun i => entry a0 a1 a2 ⟨(i 0).val, (i 0).isLt⟩ ⟨(i 1).val, (i 1).isLt⟩ ⟨(i 2).val, (i 2).isLt⟩

/-- What the body stores at `(u, r, d)` of its block is entry `(g, q, d)` of the result, when the loaded blocks are
    the arrays' rows at pair `g`, the query block's row `r` being row `q`. -/
theorem block_entry (x0 : Vec Ideal S1x512x64 .f32) (x1 x2 : Vec Ideal S1x2048x64 .f32)
    (a0 a1 a2 : S32x2048x64.Idx → EReal) (g : Fin 32) (q : Fin 2048) (u : Fin 1) (r : Fin 512) (d : Fin 64)
    (h0 : ∀ e : Fin 64, x0 (ix3 (0 : Fin 1) r e) = a0 (ix3 g q e))
    (h1 : ∀ (c : Fin 2048) (e : Fin 64), x1 (ix3 (0 : Fin 1) c e) = a1 (ix3 g c e))
    (h2 : ∀ c : Fin 2048, x2 (ix3 (0 : Fin 1) c d) = a2 (ix3 g c d)) :
    Gen.k0_pay1 (F := Ideal) x0 x1 x2 (ix3 u r d) = entry a0 a1 a2 g q d := by
  have hu : u = 0 := Subsingleton.elim _ _
  subst hu
  rw [Body.pay_apply]
  unfold entry
  congr 1
  · funext c; exact Finset.sum_congr rfl fun e _ => by rw [h0 e, h1 c e]
  · funext c; exact h2 c

/-- The same at an index of the block not yet split into coordinates. -/
theorem block_entry_idx (x0 : Vec Ideal S1x512x64 .f32) (x1 x2 : Vec Ideal S1x2048x64 .f32)
    (a0 a1 a2 : S32x2048x64.Idx → EReal) (g : Fin 32) (q : Fin 2048) (j : S1x512x64.Idx)
    (h0 : ∀ e : Fin 64, x0 (ix3 (0 : Fin 1) (⟨(j 1).val, (j 1).isLt⟩ : Fin 512) e) = a0 (ix3 g q e))
    (h1 : ∀ (c : Fin 2048) (e : Fin 64), x1 (ix3 (0 : Fin 1) c e) = a1 (ix3 g c e))
    (h2 : ∀ c : Fin 2048, x2 (ix3 (0 : Fin 1) c (⟨(j 2).val, (j 2).isLt⟩ : Fin 64)) = a2 (ix3 g c (⟨(j 2).val, (j 2).isLt⟩ : Fin 64))) :
    Gen.k0_pay1 (F := Ideal) x0 x1 x2 j = entry a0 a1 a2 g q (⟨(j 2).val, (j 2).isLt⟩ : Fin 64) := by
  obtain ⟨u, r, d, rfl⟩ : ∃ (u : Fin 1) (r : Fin 512) (d : Fin 64), j = ix3 u r d := ⟨j 0, j 1, j 2, eq_ix3 j⟩
  exact block_entry x0 x1 x2 a0 a1 a2 g q u r d h0 h1 h2

/-- The printed index maps, decided over the grid's 128 points: the query and result windows move together over
    (pair, query block); the key and value windows follow the pair only; every block starts at column zero. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 32 ∧ win0_3.index t (1 : Fin 3) < 4 ∧ win0_3.index t (2 : Fin 3) = 0 :=
  (by decide +kernel : ∀ t : Fin grid0.N, _)

/-- Every (pair, query block) is some point's. -/
theorem idx_onto : ∀ (g : Fin 32) (qb : Fin 4), ∃ t : Fin cfg0.N, win0_3.index t = ![g.val, qb.val, 0] :=
  (by decide +kernel : ∀ (g : Fin 32) (qb : Fin 4), ∃ t : Fin grid0.N, win0_3.index t = ![g.val, qb.val, 0])

end Cert.SparseAttn.Blocks

end
-- ==== Proof.Blocks.lean ====
/-
  From the grid's blocks to the region's whole result array.

  Point t writes back one block of 512 rows of one pair. What it writes is, entry by entry, the result
  function of the three arrays the region reads (the body's stored value read through the blocks the
  windows fetched: each input block is its array read where the result block's position says). The
  128 blocks tile the result array — row q of pair g lies in the block of the point (g, q / 512) — so
  after the run the array is that function everywhere.
-/
import proofs.«112122_j34488587387508_2_alg».proof.Proof.BlockEntry
import Idealize.ShloMosaic.Lib.Pipeline.Value

set_option maxRecDepth 16384

noncomputable section

namespace Cert.SparseAttn.Blocks

open Idealize.ShloMosaic Idealize.ShloMosaic.TcCoe Idealize.SL.Sem Idealize.ShloMosaic.ValueIdx Cert.KernelIdeal Cert.SparseAttn
open Idealize.ShloMosaic.Pipeline (Dat)

variable (m : (ℓ : Loc nD τ sig) → Buf (Elt Ideal) ℓ)

/-- WHAT POINT `t` WRITES BACK is block `t` of the result function of the arrays as the region finds them. -/
theorem flushed_eq (c : Dev nD) (t : Fin cfg0.N) :
    (Gen.dats m 0 c).flushed 3 t = ((cfg0.win 3).blk t).view.read (Elt Ideal) (regionResult (Gen.V m c main_v0) (Gen.V m c main_v1) (Gen.V m c main_v2)) := by
  show (cfg0.win 3).cut (grid0.coords t) ((Gen.dats m 0 c).after 3 t) = _
  rw [Gen.after0_3]
  unfold Gen.out0_3
  rw [View.canon_unit_zero hz3]
  simp only [View.ld_unit_zero (S := S1x512x64) hz3, View.ld_unit_zero (S := S1x2048x64) hz3]
  obtain ⟨e00, e01, e02, e10, e11, e12, e20, e21, e22, b0, b1, e32⟩ := idx_facts t
  funext j
  have hj0 : (j 0).val < 1 := (j 0).isLt
  have hj1 : (j 1).val < 512 := (j 1).isLt
  have hj2 : (j 2).val < 64 := (j 2).isLt
  show Gen.k0_pay1 (F := Ideal) (Gen.iblk m c 0 t) (Gen.iblk m c 1 t) (Gen.iblk m c 2 t) j = regionResult (Gen.V m c main_v0) (Gen.V m c main_v1) (Gen.V m c main_v2) (((cfg0.win 3).blk t).view.emb j)
  refine (block_entry_idx (Gen.iblk m c 0 t) (Gen.iblk m c 1 t) (Gen.iblk m c 2 t) (Gen.V m c main_v0) (Gen.V m c main_v1) (Gen.V m c main_v2)
      (⟨win0_3.index t (0 : Fin 3), b0⟩ : Fin 32) (⟨win0_3.index t (1 : Fin 3) * 512 + (j 1).val, by omega⟩ : Fin 2048) j ?_ ?_ ?_).trans ?_
  · intro e
    show Gen.V m c main_v0 (((cfg0.win 0).blk t).view.emb (ix3 (0 : Fin 1) (⟨(j 1).val, hj1⟩ : Fin 512) e)) = _
    refine congrArg (Gen.V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 512 + 1 * (j 1).val = win0_3.index t (1 : Fin 3) * 512 + (j 1).val; omega
    | ⟨2, _⟩ => show win0_0.index t (2 : Fin 3) * 64 + 1 * e.val = e.val; omega
  · intro c' e
    show Gen.V m c main_v1 (((cfg0.win 1).blk t).view.emb (ix3 (0 : Fin 1) c' e)) = _
    refine congrArg (Gen.V m c main_v1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * c'.val = c'.val; omega
    | ⟨2, _⟩ => show win0_1.index t (2 : Fin 3) * 64 + 1 * e.val = e.val; omega
  · intro c'
    show Gen.V m c main_v2 (((cfg0.win 2).blk t).view.emb (ix3 (0 : Fin 1) c' (⟨(j 2).val, hj2⟩ : Fin 64))) = _
    refine congrArg (Gen.V m c main_v2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * c'.val = c'.val; omega
    | ⟨2, _⟩ => show win0_2.index t (2 : Fin 3) * 64 + 1 * (j 2).val = (j 2).val; omega
  · unfold regionResult
    have k0 : (⟨win0_3.index t (0 : Fin 3), b0⟩ : Fin 32) = ⟨((((cfg0.win 3).blk t).view.emb j) 0).val, ((((cfg0.win 3).blk t).view.emb j) 0).isLt⟩ :=
      Fin.ext (by show win0_3.index t (0 : Fin 3) = win0_3.index t (0 : Fin 3) * 1 + 1 * (j 0).val; omega)
    have k1 : (⟨win0_3.index t (1 : Fin 3) * 512 + (j 1).val, by omega⟩ : Fin 2048) = ⟨((((cfg0.win 3).blk t).view.emb j) 1).val, ((((cfg0.win 3).blk t).view.emb j) 1).isLt⟩ :=
      Fin.ext (by show win0_3.index t (1 : Fin 3) * 512 + (j 1).val = win0_3.index t (1 : Fin 3) * 512 + 1 * (j 1).val; omega)
    have k2 : (⟨(j 2).val, (j 2).isLt⟩ : Fin 64) = ⟨((((cfg0.win 3).blk t).view.emb j) 2).val, ((((cfg0.win 3).blk t).view.emb j) 2).isLt⟩ :=
      Fin.ext (by show (j 2).val = win0_3.index t (2 : Fin 3) * 64 + 1 * (j 2).val; omega)
    exact congr (congr (congrArg (entry (Gen.V m c main_v0) (Gen.V m c main_v1) (Gen.V m c main_v2)) k0) k1) k2

/-- An index of the result array is in point `t`'s block iff each coordinate is in the block's range on its axis. -/
theorem mem_blk (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3).slice (win0_3.rect t)).set ↔ _
  rw [View.set_slice_whole, Rect.mem_set_unit]
  exact Iff.rfl

/-- Every index of the result array is in the block of the point of its pair and of its row's block of 512. -/
theorem cover (i : S32x2048x64.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, Gen.flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE RESULT ARRAY after the run is the result function of the arrays as the region finds them. -/
theorem final3 (c : Dev nD) :
    (Gen.dats m 0 c).arrAt 3 cfg0.N = regionResult (Gen.V m c main_v0) (Gen.V m c main_v1) (Gen.V m c main_v2) :=
  (Gen.dats m 0 c).arrAt_eq_of_cover 3 _ (fun t _ => flushed_eq m c t) cover

end Cert.SparseAttn.Blocks

end
-- ==== Proof.KernelRun.lean ====
/-
  The kernel's run, read: the result array as one function of the argument arrays.

  Around the region the program flattens batch and head into 32 pairs (three reshapes before, one after).
  The three arrays the region reads are the arguments under that flattening; the region's result is the
  kernel's entry function of them (the blocks, assembled); the last reshape undoes the flattening. So the
  result at (b, h, q, d) is the kernel's entry of query row q of head (b, h) against the head's keys and
  column d of its values, stated of the argument arrays themselves, and the arguments end unchanged.
-/
import proofs.«112122_j34488587387508_2_alg».proof.Proof.Blocks
import Idealize.ShloMosaic.Lib.StableHlo.Run
import Idealize.ShloMosaic.Lib.Pipeline.FrameSuffix

set_option maxRecDepth 16384

noncomputable section

namespace Cert.SparseAttn.KernelRun

open Idealize.ShloMosaic Idealize.ShloMosaic.TcCoe Idealize.SL.Sem Idealize.ShloMosaic.ValueIdx Idealize.ShloMosaic.StableHlo Cert.KernelIdeal Cert.SparseAttn Cert.SparseAttn.Blocks
open Idealize.ShloMosaic.Pipeline (Dat)

variable (m : (ℓ : Loc nD τ sig) → Buf (Elt Ideal) ℓ) (ρ : Dev nD → PrngReg)

/-- The 32 (batch, head) pairs: pair `16 b + h` of the flattened array is `(b, h)` of the argument. -/
theorem pairs_apply (x : S2x16x2048x64.Idx → EReal) (h : S2x16x2048x64.ShapeCasts S32x2048x64)
    (b : Fin 2) (hh : Fin 16) (q : Fin 2048) (e : Fin 64) :
    shapeCast S32x2048x64 x h (ix3 (⟨b.val * 16 + hh.val, by omega⟩ : Fin 32) q e) = x (ix4 b hh q e) :=
  shapeCast_apply x h _ _ (by
    rw [Shape.rowMajor_val_four, Shape.rowMajor_val_three]
    rfl)

/-- And back: `(b, h)` of the result is pair `16 b + h` of the region's result. -/
theorem unpairs_apply (y : S32x2048x64.Idx → EReal) (h : S32x2048x64.ShapeCasts S2x16x2048x64)
    (b : Fin 2) (hh : Fin 16) (q : Fin 2048) (d : Fin 64) :
    shapeCast S2x16x2048x64 y h (ix4 b hh q d) = y (ix3 (⟨b.val * 16 + hh.val, by omega⟩ : Fin 32) q d) :=
  shapeCast_apply y h _ _ (by
    rw [Shape.rowMajor_val_four, Shape.rowMajor_val_three]
    rfl)

/-- The three arrays the region reads are the arguments with batch and head flattened. -/
theorem V_main_v0 (c : Dev nD) : (Gen.V m c main_v0 : S32x2048x64.Idx → EReal)
    = shapeCast S32x2048x64 (m ((c : Thread nD τ).loc main_arg0)) Facts₀.shapeCasts_S2x16x2048x64_S32x2048x64 := by
  show StableHlo.after Gen.hostOps0 (fun b => m (c, b)) (Proc.devRef .tc main_v0) = _
  after_results; rfl
theorem V_main_v1 (c : Dev nD) : (Gen.V m c main_v1 : S32x2048x64.Idx → EReal)
    = shapeCast S32x2048x64 (m ((c : Thread nD τ).loc main_arg1)) Facts₀.shapeCasts_S2x16x2048x64_S32x2048x64 := by
  show StableHlo.after Gen.hostOps0 (fun b => m (c, b)) (Proc.devRef .tc main_v1) = _
  after_results; rfl
theorem V_main_v2 (c : Dev nD) : (Gen.V m c main_v2 : S32x2048x64.Idx → EReal)
    = shapeCast S32x2048x64 (m ((c : Thread nD τ).loc main_arg2)) Facts₀.shapeCasts_S2x16x2048x64_S32x2048x64 := by
  show StableHlo.after Gen.hostOps0 (fun b => m (c, b)) (Proc.devRef .tc main_v2) = _
  after_results; rfl

/-- The kernel's result at `(b, h, q, d)` from the argument arrays: the kernel's entry of query row `q` of head
    `(b, h)` against the head's keys, and column `d` of its values. -/
def attn (a0 a1 a2 : S2x16x2048x64.Idx → EReal) (b : Fin 2) (hh : Fin 16) (q : Fin 2048) (d : Fin 64) : EReal :=
  kernelRow (fun c : Fin 2048 => ∑ e : Fin 64, a0 (ix4 b hh q e) * a1 (ix4 b hh c e)) (fun c : Fin 2048 => a2 (ix4 b hh c d))

/-- The kernel's whole result as one function of the argument arrays. -/
def kernelResult (a0 a1 a2 : S2x16x2048x64.Idx → EReal) : S2x16x2048x64.Idx → EReal :=
  fun i => attn a0 a1 a2 ⟨(i 0).val, (i 0).isLt⟩ ⟨(i 1).val, (i 1).isLt⟩ ⟨(i 2).val, (i 2).isLt⟩ ⟨(i 3).val, (i 3).isLt⟩

/-- The reshape after the region leaves, at `(b, h, q, d)`, the region's entry `(16 b + h, q, d)`, which is the
    kernel's entry of the ARGUMENT arrays at `(b, h, q, d)`. -/
theorem tail_eq (c : Dev nD) :
    Pipeline.afterTail₀ cfgs (Gen.dats m) 0 (Gen.V0 m) [Gen.hostOps1] c main_v4
      = kernelResult (m ((c : Thread nD τ).loc main_arg0)) (m ((c : Thread nD τ).loc main_arg1)) (m ((c : Thread nD τ).loc main_arg2)) := by
  unfold Pipeline.afterTail₀
  show StableHlo.after Gen.hostOps1 _ (Proc.devRef .tc main_v4) = _
  after_results
  refine funext fun (i : S2x16x2048x64.Idx) => ?_
  obtain ⟨b, hh, q, d, rfl⟩ : ∃ (b : Fin 2) (hh : Fin 16) (q : Fin 2048) (d : Fin 64), i = ix4 b hh q d := ⟨i 0, i 1, i 2, i 3, eq_ix4 i⟩
  show shapeCast S2x16x2048x64 (Pipeline.withArrays (cfgs 0).spec c (Gen.V0 m c) (fun w => (Gen.dats m 0 c).arrAt w (cfgs 0).N) (Proc.devRef .tc main_v3))
      Facts₀.shapeCasts_S32x2048x64_S2x16x2048x64 (ix4 b hh q d) = attn _ _ _ b hh q d
  rw [unpairs_apply]
  rw [show Pipeline.withArrays (cfgs 0).spec c (Gen.V0 m c) (fun w => (Gen.dats m 0 c).arrAt w (cfgs 0).N) (Proc.devRef .tc main_v3)
      = (Gen.dats m 0 c).arrAt 3 cfg0.N from Pipeline.withArrays_arr spec0 Gen.launch0.win.arr_inj c _ _ 3]
  rw [final3]
  show entry (Gen.V m c main_v0) (Gen.V m c main_v1) (Gen.V m c main_v2) (⟨b.val * 16 + hh.val, by omega⟩ : Fin 32) q d = _
  unfold entry attn
  rw [V_main_v0, V_main_v1, V_main_v2]
  congr 1
  · funext c'; exact Finset.sum_congr rfl fun e _ => by rw [pairs_apply, pairs_apply]
  · funext c'; exact pairs_apply _ _ b hh c' d

/-- THE KERNEL'S RUN, READ: every weakly fair execution terminates with the result array at the kernel's function of
    the argument arrays, and the arguments unchanged. -/
theorem kernel_run : θ_run defs (onTc (τ := τ) (main (F := Ideal))) ⟨m, fun _ => 0, ρ⟩ fun r => ∀ c : Dev nD,
      r.2.mem ((c.tc : Thread nD τ).loc main_v4)
        = kernelResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v4 (Pipeline.mem_restRefs_of main_v4 (by decide) (by decide))).trans (tail_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c)⟩)
    (Gen.run_main m ρ)

end Cert.SparseAttn.KernelRun

end
-- ==== Proof.RefRead.lean ====
/-
  The reference program's result read at one output entry.

  For batch `b`, head `h`, query row `r` and value column `d`, the reference forms the score row
  `s c = ∑ e, q (b,h,r,e) * k (b,h,c,e)`, takes its maximum from minus infinity, exponentiates the differences,
  normalises by their sum, zeroes the weights below the threshold, renormalises the kept weights by their sum
  plus epsilon, and contracts with the value column. Each stage is read here at explicit coordinates and
  identified with the corresponding piece of the specification; the last theorem assembles them.
-/
import proofs.«112122_j34488587387508_2_alg».proof.Proof.Gen.ReferenceIdeal.Read
import proofs.«112122_j34488587387508_2_alg».proof.Proof.Spec
import Idealize.ShloMosaic.Lib.ValueIdx
import Idealize.ShloMosaic.PureOps.Ideal.Laws

noncomputable section

namespace Cert.SparseAttn.RefRead

open Idealize.ShloMosaic Idealize.ShloMosaic.ValueIdx Cert.ReferenceIdeal Cert.ReferenceIdeal.Read

variable [Cert.ReferenceIdeal.Facts]

/-- The score row of query `r`: entry `c` is the query row against key row `c`. -/
abbrev srow (x0 x1 : FVec Ideal Cert.ReferenceIdeal.S2x16x2048x64 .f32) (b : Fin 2) (h : Fin 16) (r : Fin 2048) :
    Fin 2048 → EReal :=
  fun c : Fin 2048 => ∑ e : Fin 64, x0 (ix4 b h r e) * x1 (ix4 b h c e)

/-- The scores: the first contraction at (b, h, r, c) is the sum over the feature axis. -/
theorem v0_at (x0 x1 : FVec Ideal Cert.ReferenceIdeal.S2x16x2048x64 .f32)
    (b : Fin 2) (h : Fin 16) (r c : Fin 2048) :
    val_main_v0 (F := Ideal) x0 x1 (ix4 b h r c) = srow x0 x1 b h r c := by
  rw [val_main_v0_apply]
  refine Finset.sum_congr rfl fun e _ => ?_
  have el : lidx_main_v0 (ix4 b h r c) e = ix4 b h r e :=
    funext fun a => Fin.ext (by match a with | ⟨0, _⟩ => rfl | ⟨1, _⟩ => rfl | ⟨2, _⟩ => rfl | ⟨3, _⟩ => rfl)
  have er : ridx_main_v0 (ix4 b h r c) e = ix4 b h c e :=
    funext fun a => Fin.ext (by match a with | ⟨0, _⟩ => rfl | ⟨1, _⟩ => rfl | ⟨2, _⟩ => rfl | ⟨3, _⟩ => rfl)
  rw [el, er]

/-- The reduced index (b, h, r) with key coordinate `k` put back is (b, h, r, k). -/
theorem lift_ix3 (hr : Cert.ReferenceIdeal.S2x16x2048x2048.Reduces [3] Cert.ReferenceIdeal.S2x16x2048)
    (b : Fin 2) (h : Fin 16) (r : Fin 2048) (k : Fin (Cert.ReferenceIdeal.S2x16x2048x2048.size 3)) :
    hr.lift (ix3 b h r) k = ix4 b h r (⟨k.val, k.isLt⟩ : Fin 2048) := by
  funext c; apply Fin.ext
  fin_cases c <;> rfl

/-- The max-reduce over the key axis, from minus infinity, is the row maximum of the scores. -/
theorem v1_at (x0 x1 : FVec Ideal Cert.ReferenceIdeal.S2x16x2048x64 .f32)
    (b : Fin 2) (h : Fin 16) (r : Fin 2048) :
    val_main_v1 (F := Ideal) x0 x1 (ix3 b h r) = rowMax (srow x0 x1 b h r) := by
  unfold val_main_v1
  generalize hy : val_main_v0 (F := Ideal) x0 x1 = y
  have hr : Cert.ReferenceIdeal.S2x16x2048x2048.Reduces [3] Cert.ReferenceIdeal.S2x16x2048 := by decide
  refine (Host.reduce_eq_fold_single (FloatOps.maximumf (F := Ideal) (φ := .f32)) y (val_main_cst (F := Ideal))
    Gen.reducesTo_S2x16x2048x2048_S2x16x2048_d3 hr Gen.h_S_ (ix3 b h r)).trans ?_
  unfold rowMax
  have hf : (y ∘ hr.lift (ix3 b h r)) = fun k : Fin 2048 => srow x0 x1 b h r k := funext fun k => by
    show y (hr.lift (ix3 b h r) k) = _
    rw [lift_ix3 hr b h r k, ← hy]
    exact v0_at x0 x1 b h r _
  exact congrArg (fun f => Finset.fold max (Ideal.ofBits .f32 0xFF800000#32) f (Finset.univ : Finset (Fin 2048))) hf

/-- Minus infinity is the least extended real: a maximum with it is the other argument. -/
theorem max_negInf (y : EReal) : max (Ideal.ofBits .f32 0xFF800000#32) y = y := by
  simp [Ideal.ofBits, Ideal.ieee]

/-- The maximum with the broadcast minus infinity leaves the row maximum. -/
theorem v3_at (x0 x1 : FVec Ideal Cert.ReferenceIdeal.S2x16x2048x64 .f32) (b : Fin 2) (h : Fin 16) (r : Fin 2048) :
    val_main_v3 (F := Ideal) x0 x1 (ix3 b h r) = rowMax (srow x0 x1 b h r) := by
  rw [val_main_v3_apply, val_main_v2_apply, val_main_cst_0_apply, v1_at]
  exact max_negInf _

/-- The row maximum broadcast back along the key axis. -/
theorem v5_at (x0 x1 : FVec Ideal Cert.ReferenceIdeal.S2x16x2048x64 .f32) (b : Fin 2) (h : Fin 16) (r c : Fin 2048) :
    val_main_v5 (F := Ideal) x0 x1 (ix4 b h r c) = rowMax (srow x0 x1 b h r) := by
  rw [val_main_v5_apply, val_main_v4_apply]
  have e : idx_main_v4 (idx_main_v5 (ix4 b h r c)) = ix3 b h r := funext fun a => Fin.ext (by match a with | ⟨0, _⟩ => rfl | ⟨1, _⟩ => rfl | ⟨2, _⟩ => rfl)
  rw [e, v3_at]

/-- The numerator: the exponential of the score less the row maximum. -/
theorem v7_at (x0 x1 : FVec Ideal Cert.ReferenceIdeal.S2x16x2048x64 .f32) (b : Fin 2) (h : Fin 16) (r c : Fin 2048) :
    val_main_v7 (F := Ideal) x0 x1 (ix4 b h r c) = num (srow x0 x1 b h r) c := by
  rw [val_main_v7_apply, val_main_v6_apply, v0_at, v5_at]
  rfl

/-- The denominator: the numerators summed over the key axis, from zero. -/
theorem v8_at (x0 x1 : FVec Ideal Cert.ReferenceIdeal.S2x16x2048x64 .f32) (b : Fin 2) (h : Fin 16) (r : Fin 2048) :
    val_main_v8 (F := Ideal) x0 x1 (ix3 b h r) = den (srow x0 x1 b h r) := by
  rw [val_main_v8_apply, val_main_cst_1_apply]
  show Ideal.ofBits .f32 0x00000000#32 + _ = _
  rw [Ideal.ofBits_zero_f32, zero_add]
  unfold den
  refine Finset.sum_congr rfl fun k _ => ?_
  have e : idx_main_v8 (ix3 b h r) k = ix4 b h r k := funext fun a => Fin.ext (by match a with | ⟨0, _⟩ => rfl | ⟨1, _⟩ => rfl | ⟨2, _⟩ => rfl | ⟨3, _⟩ => rfl)
  rw [e, v7_at]

/-- The denominator broadcast back along the key axis. -/
theorem v10_at (x0 x1 : FVec Ideal Cert.ReferenceIdeal.S2x16x2048x64 .f32) (b : Fin 2) (h : Fin 16) (r c : Fin 2048) :
    val_main_v10 (F := Ideal) x0 x1 (ix4 b h r c) = den (srow x0 x1 b h r) := by
  rw [val_main_v10_apply, val_main_v9_apply]
  have e : idx_main_v9 (idx_main_v10 (ix4 b h r c)) = ix3 b h r := funext fun a => Fin.ext (by match a with | ⟨0, _⟩ => rfl | ⟨1, _⟩ => rfl | ⟨2, _⟩ => rfl)
  rw [e, v8_at]

/-- The normalised weight: numerator over denominator. -/
theorem v11_at (x0 x1 : FVec Ideal Cert.ReferenceIdeal.S2x16x2048x64 .f32) (b : Fin 2) (h : Fin 16) (r c : Fin 2048) :
    val_main_v11 (F := Ideal) x0 x1 (ix4 b h r c)
      = Ideal.div (num (srow x0 x1 b h r) c) (den (srow x0 x1 b h r)) := by
  rw [val_main_v11_apply, v7_at, v10_at]
  rfl

/-- The broadcast threshold word. -/
theorem v12_at (i : Cert.ReferenceIdeal.S2x16x2048x2048.Idx) :
    val_main_v12 (F := Ideal) i = thr := by
  rw [val_main_v12_apply, val_main_cst_2_apply]
  rfl

/-- The broadcast zero word is zero. -/
theorem call0_v1_at (i : Cert.ReferenceIdeal.S2x16x2048x2048.Idx) :
    val_main_call0_v1 (F := Ideal) i = (0 : EReal) := by
  rw [val_main_call0_v1_apply, val_main_call0_v0_apply, val_main_cst_3_apply]
  exact Ideal.ofBits_zero_f32

/-- Selecting zero where `a < t` and `a` elsewhere, through the comparison's one-bit result. -/
theorem select_olt (a t : EReal) :
    Scalar.select (Ideal.cmp .olt a t) (0 : EReal) a = if a < t then 0 else a := by
  unfold Scalar.select Ideal.cmp
  by_cases hlt : a < t
  · simp [hlt]
  · simp [hlt]

/-- The kept weight: zero below the threshold, the normalised weight otherwise. -/
theorem v14_at (x0 x1 : FVec Ideal Cert.ReferenceIdeal.S2x16x2048x64 .f32) (b : Fin 2) (h : Fin 16) (r c : Fin 2048) :
    val_main_v14 (F := Ideal) x0 x1 (ix4 b h r c) = keptWeight (srow x0 x1 b h r) c := by
  rw [val_main_v14_apply, val_main_v13_apply, v11_at, v12_at, call0_v1_at, Ideal.cmpf_def]
  exact select_olt _ _

/-- The kept weights summed over the key axis, from zero. -/
theorem v15_at (x0 x1 : FVec Ideal Cert.ReferenceIdeal.S2x16x2048x64 .f32) (b : Fin 2) (h : Fin 16) (r : Fin 2048) :
    val_main_v15 (F := Ideal) x0 x1 (ix3 b h r) = ∑ k : Fin 2048, keptWeight (srow x0 x1 b h r) k := by
  rw [val_main_v15_apply, val_main_cst_4_apply]
  show Ideal.ofBits .f32 0x00000000#32 + _ = _
  rw [Ideal.ofBits_zero_f32, zero_add]
  refine Finset.sum_congr rfl fun k _ => ?_
  have e : idx_main_v15 (ix3 b h r) k = ix4 b h r k := funext fun a => Fin.ext (by match a with | ⟨0, _⟩ => rfl | ⟨1, _⟩ => rfl | ⟨2, _⟩ => rfl | ⟨3, _⟩ => rfl)
  rw [e, v14_at]

/-- The normaliser: the kept weights' sum plus epsilon. -/
theorem v18_at (x0 x1 : FVec Ideal Cert.ReferenceIdeal.S2x16x2048x64 .f32) (b : Fin 2) (h : Fin 16) (r : Fin 2048) :
    val_main_v18 (F := Ideal) x0 x1 (ix4 b h r (0 : Fin 1))
      = (∑ k : Fin 2048, keptWeight (srow x0 x1 b h r) k) + eps := by
  rw [val_main_v18_apply, val_main_v16_apply, val_main_v17_apply, val_main_cst_5_apply]
  have e : idx_main_v16 (ix4 b h r (0 : Fin 1)) = ix3 b h r := funext fun a => Fin.ext (by match a with | ⟨0, _⟩ => rfl | ⟨1, _⟩ => rfl | ⟨2, _⟩ => rfl)
  rw [e, v15_at]
  rfl

/-- The normaliser broadcast back along the key axis. -/
theorem v19_at (x0 x1 : FVec Ideal Cert.ReferenceIdeal.S2x16x2048x64 .f32) (b : Fin 2) (h : Fin 16) (r c : Fin 2048) :
    val_main_v19 (F := Ideal) x0 x1 (ix4 b h r c)
      = (∑ k : Fin 2048, keptWeight (srow x0 x1 b h r) k) + eps := by
  rw [val_main_v19_apply]
  have e : idx_main_v19 (ix4 b h r c) = ix4 b h r (0 : Fin 1) := funext fun a => Fin.ext (by match a with | ⟨0, _⟩ => rfl | ⟨1, _⟩ => rfl | ⟨2, _⟩ => rfl | ⟨3, _⟩ => rfl)
  rw [e, v18_at]

/-- The renormalised kept weight. -/
theorem v20_at (x0 x1 : FVec Ideal Cert.ReferenceIdeal.S2x16x2048x64 .f32) (b : Fin 2) (h : Fin 16) (r c : Fin 2048) :
    val_main_v20 (F := Ideal) x0 x1 (ix4 b h r c)
      = Ideal.div (keptWeight (srow x0 x1 b h r) c) ((∑ k : Fin 2048, keptWeight (srow x0 x1 b h r) k) + eps) := by
  rw [val_main_v20_apply, v14_at, v19_at]
  rfl

end Cert.SparseAttn.RefRead

namespace Cert.SparseAttn

open Idealize.ShloMosaic Idealize.ShloMosaic.ValueIdx Cert.ReferenceIdeal Cert.ReferenceIdeal.Read

/-- The reference's result at (b, h, r, d) is the specification's entry of the score row and the value column. -/
theorem ref_apply [Cert.ReferenceIdeal.Facts] (x0 x1 x2 : FVec Ideal Cert.ReferenceIdeal.S2x16x2048x64 .f32)
    (b : Fin 2) (h : Fin 16) (r : Fin 2048) (d : Fin 64) :
    Cert.ReferenceIdeal.Read.val_main_v21 (F := Ideal) x0 x1 x2 (ix4 b h r d)
      = refRow (fun c : Fin 2048 => ∑ e : Fin 64, x0 (ix4 b h r e) * x1 (ix4 b h c e)) (fun c : Fin 2048 => x2 (ix4 b h c d)) := by
  rw [val_main_v21_apply]
  unfold refRow
  refine Finset.sum_congr rfl fun k _ => ?_
  have el : lidx_main_v21 (ix4 b h r d) k = ix4 b h r k := funext fun a => Fin.ext (by match a with | ⟨0, _⟩ => rfl | ⟨1, _⟩ => rfl | ⟨2, _⟩ => rfl | ⟨3, _⟩ => rfl)
  have er : ridx_main_v21 (ix4 b h r d) k = ix4 b h k d := funext fun a => Fin.ext (by match a with | ⟨0, _⟩ => rfl | ⟨1, _⟩ => rfl | ⟨2, _⟩ => rfl | ⟨3, _⟩ => rfl)
  rw [el, er, RefRead.v20_at]

end Cert.SparseAttn

end
-- ==== Proof.RowAlgebra.lean ====
/-
  The row algebra of thresholded softmax attention, over the extended reals and the reals.

  With every score real, the row maximum `m` is real, every numerator `e k = exp (s k - m)` is a
  positive real and the denominator `l = ∑ e` is a positive real; the threshold and the epsilon are
  real numbers `T` and `E` with `0 < E`. Over the reals, with `0 < l`:
  `e k / l < T ↔ ¬ (T * l ≤ e k)`, so a kept weight is the kept numerator over `l`; the kept weights
  sum to `A / l` with `A` the sum of the kept numerators; `A / l + E = (A + E * l) / l`, which is
  positive; so a kept weight over that is the kept numerator over `A + E * l`, and the reference's
  sum against the values is the kernel's quotient.
-/
import proofs.«112122_j34488587387508_2_alg».proof.Proof.Spec

noncomputable section

namespace Cert.SparseAttn

open Idealize.ShloMosaic

/-! The auxiliary lemmas live in their own namespace; only the final theorem sits in `Cert.SparseAttn`. -/
namespace RowAlgebra

/-- The float word for minus infinity denotes the bottom of the extended reals. -/
theorem negInf_eq_bot : negInf = ⊥ := by
  simp [negInf, Ideal.ofBits, Ideal.ieee]

/-- The threshold word denotes the real `13421773 · 2⁻²⁷` (about a tenth). -/
theorem thr_eq : thr = ((13421773 * (2 : ℝ) ^ (-27 : Int) : ℝ) : EReal) := by
  simp [thr, Ideal.ofBits, Ideal.ieee, -EReal.coe_mul]

/-- The epsilon word denotes the real `8796093 · 2⁻⁴³` (about a millionth). -/
theorem eps_eq : eps = ((8796093 * (2 : ℝ) ^ (-43 : Int) : ℝ) : EReal) := by
  simp [eps, Ideal.ofBits, Ideal.ieee, -EReal.coe_mul]

/-- A finite sum of coerced reals is the coerced sum. -/
theorem coe_sum_real {α : Type} (t : Finset α) (f : α → ℝ) :
    (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- Folding `max` from the bottom over a nonempty finite family of reals gives a real. -/
theorem fold_max_real {α : Type} (t : Finset α) (ht : t.Nonempty) (f : α → ℝ) :
    ∃ m : ℝ, t.fold max (⊥ : EReal) (fun k => (f k : EReal)) = (m : EReal) := by
  classical
  induction ht using Finset.Nonempty.cons_induction with
  | singleton a => exact ⟨f a, by simp⟩
  | cons a t ha ht ih =>
    obtain ⟨m, hm⟩ := ih
    refine ⟨max (f a) m, ?_⟩
    rw [Finset.fold_cons, hm]
    exact (EReal.coe_strictMono.monotone.map_max).symm

/-- The identity over the reals: with a positive denominator `l`, a weight `e k / l` is below the
    threshold exactly when `e k` is below `T · l`, so the kept weights are the kept numerators over `l`;
    their sum plus `E` is `(A + E · l) / l` with `A` the sum of the kept numerators, and `l` cancels. -/
theorem real_identity {ι : Type} [Fintype ι] (e g : ι → ℝ) (l T E : ℝ) (hl : 0 < l) (hE : 0 < E)
    (he : ∀ k, 0 ≤ e k) :
    (∑ k, (if T * l ≤ e k then e k else 0) * g k) *
        (1 / ((∑ k, if T * l ≤ e k then e k else 0) + E * l)) =
      ∑ k, (if e k * (1 / l) < T then 0 else e k * (1 / l)) *
        (1 / ((∑ j, if e j * (1 / l) < T then 0 else e j * (1 / l)) + E)) * g k := by
  have hw : ∀ k, (if e k * (1 / l) < T then 0 else e k * (1 / l)) =
      (if T * l ≤ e k then e k else 0) / l := by
    intro k
    have hiff : e k * (1 / l) < T ↔ ¬ (T * l ≤ e k) := by
      rw [mul_one_div, div_lt_iff₀ hl, not_le]
    by_cases h : T * l ≤ e k
    · rw [if_pos h, if_neg (by rw [hiff]; exact not_not.mpr h), mul_one_div]
    · rw [if_neg h, if_pos (hiff.mpr h), zero_div]
  have hA : 0 ≤ ∑ k, (if T * l ≤ e k then e k else 0) :=
    Finset.sum_nonneg fun k _ => by split_ifs <;> [exact he k; exact le_rfl]
  have hD : 0 < (∑ k, if T * l ≤ e k then e k else 0) + E * l :=
    add_pos_of_nonneg_of_pos hA (mul_pos hE hl)
  simp_rw [hw]
  rw [← Finset.sum_div, Finset.sum_mul]
  refine Finset.sum_congr rfl fun k _ => ?_
  have hl' : l ≠ 0 := hl.ne'
  have hD' := hD.ne'
  have hD'' : (∑ k, if T * l ≤ e k then e k else 0) / l + E ≠ 0 := by
    have : (∑ k, if T * l ≤ e k then e k else 0) / l + E =
        ((∑ k, if T * l ≤ e k then e k else 0) + E * l) / l := by field_simp
    rw [this]; exact div_ne_zero hD' hl'
  field_simp

/-- The kernel's quotient at coerced reals, with a nonzero real denominator. -/
theorem kernel_coe {ι : Type} [Fintype ι] (a g : ι → ℝ) (E l : ℝ) (h : (∑ k, a k) + E * l ≠ 0) :
    Ideal.div (∑ k, (a k : EReal) * (g k : EReal)) ((∑ k, (a k : EReal)) + (E : EReal) * (l : EReal)) =
      (((∑ k, a k * g k) * (1 / ((∑ k, a k) + E * l)) : ℝ) : EReal) := by
  simp_rw [← EReal.coe_mul]
  rw [coe_sum_real, coe_sum_real, ← EReal.coe_add, Ideal.div_coe h, ← EReal.coe_mul]

/-- The reference's sum of quotients at coerced reals, with a nonzero real denominator. -/
theorem ref_coe {ι : Type} [Fintype ι] (w g : ι → ℝ) (E : ℝ) (h : (∑ j, w j) + E ≠ 0) :
    ∑ k, Ideal.div (w k : EReal) ((∑ j, (w j : EReal)) + (E : EReal)) * (g k : EReal) =
      ((∑ k, w k * (1 / ((∑ j, w j) + E)) * g k : ℝ) : EReal) := by
  rw [coe_sum_real, ← EReal.coe_add]
  simp_rw [Ideal.div_coe h, ← EReal.coe_mul]
  rw [coe_sum_real]

end RowAlgebra

open RowAlgebra in
/-- With every score and every value real, the kernel's entry is the reference's entry. -/
theorem kernelRow_eq_refRow {ι : Type} [Fintype ι] [Nonempty ι] (s v : ι → EReal)
    (hs : ∀ k, ∃ r : ℝ, s k = (r : EReal)) (hv : ∀ k, ∃ r : ℝ, v k = (r : EReal)) :
    kernelRow s v = refRow s v := by
  classical
  choose f hf using hs
  choose g hg using hv
  obtain rfl : s = fun k => (f k : EReal) := funext hf
  obtain rfl : v = fun k => (g k : EReal) := funext hg
  -- the row maximum is a real
  obtain ⟨m, hm⟩ : ∃ m : ℝ, rowMax (fun k => (f k : EReal)) = (m : EReal) := by
    unfold rowMax
    rw [negInf_eq_bot]
    exact fold_max_real Finset.univ Finset.univ_nonempty f
  -- the numerators are positive reals, the denominator their (positive) sum
  have hnum : ∀ k, num (fun k => (f k : EReal)) k = ((Real.exp (f k - m) : ℝ) : EReal) := by
    intro k
    unfold num
    rw [hm, ← EReal.coe_sub, Ideal.exp_coe]
  have hden : den (fun k => (f k : EReal)) = ((∑ k, Real.exp (f k - m) : ℝ) : EReal) := by
    unfold den
    simp_rw [hnum]
    exact coe_sum_real Finset.univ _
  have hl : 0 < ∑ k, Real.exp (f k - m) :=
    Finset.sum_pos (fun k _ => Real.exp_pos _) Finset.univ_nonempty
  have hE : 0 < (8796093 * (2 : ℝ) ^ (-43 : Int) : ℝ) := by positivity
  -- the kept numerators and the kept weights as coerced reals
  have hkn : ∀ k, keptNum (fun k => (f k : EReal)) k =
      (((if (13421773 * (2 : ℝ) ^ (-27 : Int)) * (∑ j, Real.exp (f j - m)) ≤ Real.exp (f k - m)
        then Real.exp (f k - m) else 0 : ℝ)) : EReal) := by
    intro k
    unfold keptNum
    rw [hnum, hden, thr_eq, ← EReal.coe_mul]
    simp only [EReal.coe_le_coe_iff]
    split_ifs <;> simp
  have hkw : ∀ k, keptWeight (fun k => (f k : EReal)) k =
      (((if Real.exp (f k - m) * (1 / ∑ j, Real.exp (f j - m)) < (13421773 * (2 : ℝ) ^ (-27 : Int))
        then 0 else Real.exp (f k - m) * (1 / ∑ j, Real.exp (f j - m)) : ℝ)) : EReal) := by
    intro k
    unfold keptWeight
    rw [hnum, hden, Ideal.div_coe hl.ne', ← EReal.coe_mul, thr_eq]
    simp only [EReal.coe_lt_coe_iff]
    split_ifs <;> simp
  unfold kernelRow refRow
  simp_rw [hkn, hkw, hden, eps_eq]
  rw [kernel_coe, ref_coe, EReal.coe_eq_coe_iff]
  · exact real_identity (fun k => Real.exp (f k - m)) g _ _ _ hl hE (fun k => (Real.exp_pos _).le)
  · exact (add_pos_of_nonneg_of_pos (Finset.sum_nonneg fun k _ => by
      split_ifs
      · exact le_rfl
      · exact mul_nonneg (Real.exp_pos _).le (one_div_nonneg.mpr hl.le)) hE).ne'
  · exact (add_pos_of_nonneg_of_pos (Finset.sum_nonneg fun k _ => by
      split_ifs
      · exact (Real.exp_pos _).le
      · exact le_rfl) (mul_pos hE hl)).ne'

end Cert.SparseAttn

end
-- ==== Proof.FiniteInputs.lean ====
/-
  From the certificate's precondition to "every input entry is a real number".

  The precondition is one bit: for each of the three input arrays it compares `|x|` with `+∞`
  elementwise (strictly below), takes the conjunction over every index of the array, and then the
  conjunction of the three results. At the idealized instance an element is an extended real,
  `|x|` is `max x (-x)`, and the word `0x7F800000` denotes `⊤`. So the bit being 1 says
  `max x (-x) < ⊤` at every index of every input, and an extended real with that property is
  neither `⊤` nor `⊥`: it is the coercion of a real.
-/
import proofs.«112122_j34488587387508_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.SparseAttn

open Idealize.ShloMosaic

namespace FiniteInputs

/-- An extended real whose absolute value `max x (-x)` lies strictly below `⊤` is a real:
    at `⊤` the maximum is `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word with exponent field all ones and zero fraction denotes `+∞`. -/
theorem ofBits_inf_f32 : Ideal.ofBits .f32 0x7F800000#32 = (⊤ : EReal) := by
  simp [Ideal.ofBits, Ideal.ieee]

/-- One element of the comparison `|x| < +∞` (the bound a broadcast scalar constant) being 1
    makes that element of `x` a real. Stated at any shape: the three inputs are treated alike. -/
theorem real_of_lt_inf {s : Shape} (hb : Cert.Pre_finite_inputs.S_.BroadcastsInDim s ![])
    (x : FVec Ideal s .f32) (i : s.Idx)
    (e : cmpf .olt (Host.absf x)
      (broadcastInDim s ![] hb (constant Cert.Pre_finite_inputs.S_ .f32 0x7F800000#32)) i = 1#1) :
    ∃ r : ℝ, x i = (r : EReal) := by
  -- read the comparison at the index: the right operand is the scalar constant, which is `⊤`
  rw [ValueIdx.cmpf_apply, ValueIdx.broadcastInDim_scalar_apply, ValueIdx.constant_apply,
    ofBits_inf_f32] at e
  -- the left operand is the absolute value of the element, `max (x i) (-(x i))`
  have hx : Host.absf x i = max (x i) (-(x i)) := rfl
  rw [hx, Ideal.cmpf_def] at e
  refine real_of_abs_lt_top (x i) ?_
  -- were the strict inequality false, the comparison would have produced 0
  by_contra hn
  simp [Ideal.cmp, hn] at e

end FiniteInputs

/-- If the finiteness precondition holds of the three inputs, every entry of each is a real number. -/
theorem real_of_finite_inputs [Cert.Pre_finite_inputs.Facts]
    (x0 x1 x2 : FVec Ideal Cert.Pre_finite_inputs.S2x16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- the rank-0 shape has exactly one index, so each conjunction over all four axes has one result
  haveI : Subsingleton Cert.Pre_finite_inputs.S_.Idx := ⟨fun a b => funext fun d => d.elim0⟩
  -- the precondition's bit, at the scalar's one index, as the printed chain of operations
  have h0 := congrFun h ValueIdx.ix0
  dsimp only [Cert.Pre_finite_inputs.fn] at h0
  -- a conjunction of bits is 1 exactly when both are: split off the three per-input results
  obtain ⟨h01, h2⟩ := IntOp.andi_eq_one.1 h0
  obtain ⟨h0', h1⟩ := IntOp.andi_eq_one.1 h01
  -- each result is a conjunction over every index, so each element comparison is 1
  exact ⟨fun i => FiniteInputs.real_of_lt_inf _ x0 i (Host.reduce_andi_all _ _ _ _ _ h0' i),
    fun i => FiniteInputs.real_of_lt_inf _ x1 i (Host.reduce_andi_all _ _ _ _ _ h1 i),
    fun i => FiniteInputs.real_of_lt_inf _ x2 i (Host.reduce_andi_all _ _ _ _ _ h2 i)⟩

end Cert.SparseAttn
-- ==== Proof.lean ====
/-
  Thresholded softmax attention: the kernel against its reference, over the extended reals.

  Both programs compute, for every query row of every (batch, head), the scores against the head's keys,
  the softmax numerators `e = exp (score - row maximum)` and their sum `l`. The kernel keeps the numerators
  with `T · l ≤ e`, and divides their product with the values by their sum plus `ε · l`. The reference
  normalises first (`a = e / l`), zeroes the weights with `a < T`, and divides each kept weight by the kept
  weights' sum plus `ε` before the product with the values. For finite inputs every score is a real number,
  the row maximum is real, `e > 0` and `l > 0`, so `a < T` exactly when `e < T · l`; the kernel's kept
  numerators are `l` times the reference's kept weights, its divisor is `l` times the reference's, and the
  two quotients agree. That is the only place the precondition is used.

  The kernel's value is read off its frame run: the body's stored block entry by entry, the blocks tiling
  the region's result, the reshapes before and after the region. The reference's value is its run read one
  operation at a time. The word-level kernel needs only its frame; its idealization is its own text read over
  the extended reals, no operation rewritten, so nothing further is owed for it.
-/
import proofs.«112122_j34488587387508_2_alg».proof.Defs
import proofs.«112122_j34488587387508_2_alg».proof.Proof.Gen.Kernel
import proofs.«112122_j34488587387508_2_alg».proof.Proof.Gen.Kernel.Skeleton
import proofs.«112122_j34488587387508_2_alg».proof.Proof.Gen.Kernel.Launch
import proofs.«112122_j34488587387508_2_alg».proof.Proof.Gen.Kernel.Points
import proofs.«112122_j34488587387508_2_alg».proof.Proof.Gen.Kernel.Frame
import proofs.«112122_j34488587387508_2_alg».proof.Proof.Gen.KernelIdeal
import proofs.«112122_j34488587387508_2_alg».proof.Proof.Gen.KernelIdeal.Skeleton
import proofs.«112122_j34488587387508_2_alg».proof.Proof.Gen.KernelIdeal.Launch
import proofs.«112122_j34488587387508_2_alg».proof.Proof.Gen.KernelIdeal.Points
import proofs.«112122_j34488587387508_2_alg».proof.Proof.Gen.KernelIdeal.Frame
import proofs.«112122_j34488587387508_2_alg».proof.Proof.Gen.ReferenceIdeal
import proofs.«112122_j34488587387508_2_alg».proof.Proof.Gen.Pre_finite_inputs
import proofs.«112122_j34488587387508_2_alg».proof.Proof.Gen.ReferenceIdeal.Run
import proofs.«112122_j34488587387508_2_alg».proof.Proof.Gen.ReferenceIdeal.Read
import proofs.«112122_j34488587387508_2_alg».proof.Proof.KernelRun
import proofs.«112122_j34488587387508_2_alg».proof.Proof.RefRead
import proofs.«112122_j34488587387508_2_alg».proof.Proof.RowAlgebra
import proofs.«112122_j34488587387508_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem Cert.SparseAttn

/-! ## The reference's result is the kernel's function, for finite inputs -/

/-- A row of scores of real arrays is real. -/
theorem real_scores {x0 x1 : Cert.KernelIdeal.S2x16x2048x64.Idx → EReal}
    (h0 : ∀ i, ∃ r : ℝ, x0 i = (r : EReal)) (h1 : ∀ i, ∃ r : ℝ, x1 i = (r : EReal))
    (b : Fin 2) (hh : Fin 16) (q c : Fin 2048) :
    ∃ r : ℝ, (∑ e : Fin 64, x0 (ix4 b hh q e) * x1 (ix4 b hh c e)) = (r : EReal) := by
  choose f0 hf0 using h0
  choose f1 hf1 using h1
  refine ⟨∑ e : Fin 64, f0 (ix4 b hh q e) * f1 (ix4 b hh c e), ?_⟩
  rw [← RowAlgebra.coe_sum_real]
  exact Finset.sum_congr rfl fun e _ => by rw [hf0, hf1, EReal.coe_mul]

/-- The reference's last stage, of finite arrays, is the kernel's function of them: entry by entry the reference's
    row result is the kernel's (the row law), of the same row of scores and column of values. -/
theorem ref_result (x0 x1 x2 : FVec Ideal Cert.ReferenceIdeal.S2x16x2048x64 .f32)
    (h0 : ∀ i, ∃ r : ℝ, x0 i = (r : EReal)) (h1 : ∀ i, ∃ r : ℝ, x1 i = (r : EReal)) (h2 : ∀ i, ∃ r : ℝ, x2 i = (r : EReal)) :
    Cert.ReferenceIdeal.Read.val_main_v21 (F := Ideal) x0 x1 x2 = KernelRun.kernelResult x0 x1 x2 := by
  refine funext fun (i : Cert.ReferenceIdeal.S2x16x2048x64.Idx) => ?_
  obtain ⟨b, hh, q, d, rfl⟩ : ∃ (b : Fin 2) (hh : Fin 16) (q : Fin 2048) (d : Fin 64), i = ix4 b hh q d := ⟨i 0, i 1, i 2, i 3, eq_ix4 i⟩
  rw [ref_apply]
  show refRow _ _ = KernelRun.attn x0 x1 x2 b hh q d
  unfold KernelRun.attn
  exact (kernelRow_eq_refRow _ _ (fun c => real_scores h0 h1 b hh q c) (fun c => h2 _)).symm

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text, no operation rewritten: the conjunct is `True`. -/
theorem preserves : Cert.preserves_Kernel_KernelIdeal := trivial

/-- Both runs end with the result array at the kernel's function of the (agreeing, finite) argument arrays. -/
theorem algebraic : Cert.algebraic_KernelIdeal_ReferenceIdeal := by
  intro m ρ m' ρ' hpre hagree
  refine ⟨fun c => KernelRun.kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), KernelRun.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  obtain ⟨r0, r1, r2⟩ := real_of_finite_inputs _ _ _ (hpre c)
  exact ref_result _ _ _ r0 r1 r2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
